-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S7 .f32) (main_v13 : IVec S_ 1) (main_v16 : IVec S16x7 1) : IVec S_ 1 :=
  let main_c_5 : IVec S_ 1 := constantI S_ 1 1#1
  let main_v17 : IVec S_ 1 := (fun x v => Host.reduce IntOp.andi x v reducesTo_S16x7_S_d0_1 h_S_) main_v16 main_c_5
  let main_v18 : IVec S_ 1 := andi main_v13 main_v17
  let main_v19 : FVec F S7 .f32 := Host.absf main_arg5
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x7 .f32) (main_arg5 : FVec F S7 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x7 .f32 := Host.absf main_arg4
  let main_cst_4 : FVec F S_ .f32 := constant S_ .f32 0x7F800000#32
  let main_v15 : FVec F S16x7 .f32 := broadcastInDim S16x7 ![] bcast_S_S16x7 main_cst_4
  let main_v16 : IVec S16x7 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S4000x512 : Shape := ⟨2, ![4000, 512]⟩
abbrev S4000x16 : Shape := ⟨2, ![4000, 16]⟩
abbrev S3300000x16 : Shape := ⟨2, ![3300000, 16]⟩
abbrev S1x16 : Shape := ⟨2, ![1, 16]⟩
abbrev S100000x7 : Shape := ⟨2, ![100000, 7]⟩
abbrev S4000x7 : Shape := ⟨2, ![4000, 7]⟩
abbrev S3300000x7 : Shape := ⟨2, ![3300000, 7]⟩
abbrev S1x7 : Shape := ⟨2, ![1, 7]⟩

abbrev nBuf : Space → Nat
  | .hbm => 89
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S3300000x1, .f32⟩
  | .hbm, ⟨48, _⟩ => ⟨S_, .i32⟩
  | .hbm, ⟨49, _⟩ => ⟨S3300000, .i32⟩
  | .hbm, ⟨50, _⟩ => ⟨S3300000, .i1⟩
  | .hbm, ⟨51, _⟩ => ⟨S_, .i32⟩
  | .hbm, ⟨52, _⟩ => ⟨S3300000, .i32⟩
  | .hbm, ⟨53, _⟩ => ⟨S3300000, .i32⟩
  | .hbm, ⟨54, _⟩ => ⟨S3300000, .i32⟩
  | .hbm, ⟨55, _⟩ => ⟨S3300000x1, .i32⟩
  | .hbm, ⟨56, _⟩ => ⟨S3300000x16, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x7, .f32⟩
  | .hbm, ⟨70, _⟩ => ⟨S3300000x1, .f32⟩
  | .hbm, ⟨71, _⟩ => ⟨S_, .i32⟩
  | .hbm, ⟨72, _⟩ => ⟨S3300000, .i32⟩
  | .hbm, ⟨73, _⟩ => ⟨S3300000, .i1⟩
  | .hbm, ⟨74, _⟩ => ⟨S_, .i32⟩
  | .hbm, ⟨75, _⟩ => ⟨S3300000, .i32⟩
  | .hbm, ⟨76, _⟩ => ⟨S3300000, .i32⟩
  | .hbm, ⟨77, _⟩ => ⟨S3300000, .i32⟩
  | .hbm, ⟨78, _⟩ => ⟨S3300000x1, .i32⟩
  | .hbm, ⟨79, _⟩ => ⟨S3300000x7, .f32⟩
  | .hbm, ⟨80, _⟩ => ⟨S3300000x7, .f32⟩
  | .hbm, ⟨81, _⟩ => ⟨S3300000x7, .f32⟩
  | .hbm, ⟨82, _⟩ => ⟨S_, .f32⟩
  | .hbm, ⟨83, _⟩ => ⟨S100000x7, .f32⟩
  | .hbm, ⟨84, _⟩ => ⟨S3300000x1, .i32⟩
  | .hbm, ⟨85, _⟩ => ⟨S100000x7, .f32⟩
  | .hbm, ⟨86, _⟩ => ⟨S1x7, .f32⟩
  | .hbm, ⟨87, _⟩ => ⟨S100000x7, .f32⟩
  | .hbm, ⟨88, _⟩ => ⟨S100000x7, .f32⟩
  | .local _ .vmem, ⟨0, _⟩ => ⟨S4000x512, .f32⟩
  | .local _ .vmem, ⟨1, _⟩ => ⟨S4000x512, .f32⟩
  | .local _ .vmem, ⟨2, _⟩ => ⟨S512x16, .f32⟩
  | .local _ .vmem, ⟨3, _⟩ => ⟨S4000x16, .f32⟩
  | .local _ .vmem, ⟨4, _⟩ => ⟨S4000x16, .f32⟩
  | .local _ .vmem, ⟨5, _⟩ => ⟨S4000x16, .f32⟩
  | .local _ .vmem, ⟨6, _⟩ => ⟨S4000x16, .f32⟩
  | .local _ .vmem, ⟨7, _⟩ => ⟨S16x7, .f32⟩
  | .local _ .vmem, ⟨8, _⟩ => ⟨S4000x7, .f32⟩
  | .local _ .vmem, ⟨9, _⟩ => ⟨S4000x7, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x7 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x7 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S4000x16_S4000x16_0_0 : ∀ a, (![0, 0] : Fin 2 → Nat) a + S4000x16.size a ≤ S4000x16.size a
  h_S4000x16 : 0 < S4000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S4000x16_S4000x16 : S4000x16.ShapeCasts S4000x16
  inb_S16x7_S16x7_0_0 : ∀ a, (![0, 0] : Fin 2 → Nat) a + S16x7.size a ≤ S16x7.size a
  h_S16x7 : 0 < S16x7.numel
  inb_S4000x7_S4000x7_0_0 : ∀ a, (![0, 0] : Fin 2 → Nat) a + S4000x7.size a ≤ S4000x7.size a
  h_S4000x7 : 0 < S4000x7.numel
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S4000x512_S512x16_S4000x16_1_0_0_1_n_n_wf : DotDims.WF S4000x512 S512x16 S4000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S4000x16_S16x7_S4000x7_1_0_0_1_n_n_wf : DotDims.WF S4000x16 S16x7 S4000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x16.size a ≤ S100000x16.size a
  hwx0_2 : ∀ i : grid0.Coords, EltTy.bits .f32 = 32 ∨ (Rect.block (s := S100000x16) S4000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x16.size a ≤ S100000x16.size a
  hwx1_0 : ∀ i : grid1.Coords, EltTy.bits .f32 = 32 ∨ (Rect.block (s := S100000x16) S4000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x7.size a ≤ S16x7.size a
  hwx1_1 : ∀ i : grid1.Coords, EltTy.bits .f32 = 32 ∨ (Rect.block (s := S16x7) S16x7.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x7.size a ≤ S100000x7.size a
  hwx1_2 : ∀ i : grid1.Coords, EltTy.bits .f32 = 32 ∨ (Rect.block (s := S100000x7) S4000x7.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S4000x512_S512x16_S4000x16_1_0_0_1_n_n : DotDims S4000x512 S512x16 S4000x16 where
  lhsContracting := [1]
  rhsContracting := [0]
  lhsNonContracting := [0]
  rhsNonContracting := [1]
  lhsBatch := []
  rhsBatch := []
  wf := dot_S4000x512_S512x16_S4000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S4000x16_S16x7_S4000x7_1_0_0_1_n_n : DotDims S4000x16 S16x7 S4000x7 where
  lhsContracting := [1]
  rhsContracting := [0]
  lhsNonContracting := [0]
  rhsNonContracting := [1]
  lhsBatch := []
  rhsBatch := []
  wf := dot_S4000x16_S16x7_S4000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S4000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S4000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x7.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S4000x7.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x7 : Shape := ⟨2, ![100000, 7]⟩
abbrev S3300000x7 : Shape := ⟨2, ![3300000, 7]⟩
abbrev S1x7 : Shape := ⟨2, ![1, 7]⟩

abbrev nBuf : Space → Nat
  | .hbm => 89
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S3300000x1, .f32⟩
  | .hbm, ⟨48, _⟩ => ⟨S_, .i32⟩
  | .hbm, ⟨49, _⟩ => ⟨S3300000, .i32⟩
  | .hbm, ⟨50, _⟩ => ⟨S3300000, .i1⟩
  | .hbm, ⟨51, _⟩ => ⟨S_, .i32⟩
  | .hbm, ⟨52, _⟩ => ⟨S3300000, .i32⟩
  | .hbm, ⟨53, _⟩ => ⟨S3300000, .i32⟩
  | .hbm, ⟨54, _⟩ => ⟨S3300000, .i32⟩
  | .hbm, ⟨55, _⟩ => ⟨S3300000x1, .i32⟩
  | .hbm, ⟨56, _⟩ => ⟨S3300000x16, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x7, .f32⟩
  | .hbm, ⟨70, _⟩ => ⟨S3300000x1, .f32⟩
  | .hbm, ⟨71, _⟩ => ⟨S_, .i32⟩
  | .hbm, ⟨72, _⟩ => ⟨S3300000, .i32⟩
  | .hbm, ⟨73, _⟩ => ⟨S3300000, .i1⟩
  | .hbm, ⟨74, _⟩ => ⟨S_, .i32⟩
  | .hbm, ⟨75, _⟩ => ⟨S3300000, .i32⟩
  | .hbm, ⟨76, _⟩ => ⟨S3300000, .i32⟩
  | .hbm, ⟨77, _⟩ => ⟨S3300000, .i32⟩
  | .hbm, ⟨78, _⟩ => ⟨S3300000x1, .i32⟩
  | .hbm, ⟨79, _⟩ => ⟨S3300000x7, .f32⟩
  | .hbm, ⟨80, _⟩ => ⟨S3300000x7, .f32⟩
  | .hbm, ⟨81, _⟩ => ⟨S3300000x7, .f32⟩
  | .hbm, ⟨82, _⟩ => ⟨S_, .f32⟩
  | .hbm, ⟨83, _⟩ => ⟨S100000x7, .f32⟩
  | .hbm, ⟨84, _⟩ => ⟨S3300000x1, .i32⟩
  | .hbm, ⟨85, _⟩ => ⟨S100000x7, .f32⟩
  | .hbm, ⟨86, _⟩ => ⟨S1x7, .f32⟩
  | .hbm, ⟨87, _⟩ => ⟨S100000x7, .f32⟩
  | .hbm, ⟨88, _⟩ => ⟨S100000x7, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x7_S100000x7_1_0_0_1_n_n_wf : DotDims.WF S100000x16 S16x7 S100000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x7_S100000x7_1_0_0_1_n_n : DotDims S100000x16 S16x7 S100000x7 where
  lhsContracting := [1]
  rhsContracting := [0]
  lhsNonContracting := [0]
  rhsNonContracting := [1]
  lhsBatch := []
  rhsBatch := []
  wf := dot_S100000x16_S16x7_S100000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

class Facts : Prop extends Facts₀ where

variable [Facts]
-- ==== Proof.KernelRun.lean ====
/-
  The idealized kernel program's run with every buffer named.

  @main is a chain of eight segments: three stretches of host operations, the first linear layer's grid of 25 row
  blocks, two more stretches, the second linear layer's grid, and a last stretch. The contents of the unscoped buffers
  at each boundary are a fold from the launch memory: a stretch applies its operations, a grid leaves its output
  array at what its 25 write-backs add up to and every other buffer as it found it. The frame of the program only
  says that the six argument arrays come back unchanged; here the same run is stated with EVERY unscoped buffer at
  the last boundary's contents, so that the result buffer can be read.
-/
import proofs.«150052_j30219389894763_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every core at
    the contents the last boundary of the fold names (`Gen.W8`). -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The same run read at the result buffer and the six arguments: the result at the last boundary's contents, the
    arguments as launched. -/
theorem run_result : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v64 (by decide)),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c)⟩)
    (run_all m ρ)

end Cert.KernelIdeal.Whole

end
-- ==== Proof.Graph.lean ====
/-
  The graph side of the two-layer network, as functions of arrays.

  Both programs compute, around their two matrix products, the same host operations:
    * the edge list with one self loop per node appended: sources `rowIdx e`, targets `colIdx e` (3 300 000 entries);
    * the in-degree `deg` of every node (a scatter-add of ones at the targets), its inverse square root where the
      degree is positive and zero elsewhere (`dinv`), and per edge the weight `dinv[source] · dinv[target]`
      (`edgeNorm`; a negative index is wrapped by the node count before the gather, as jnp indexing does);
    * one convolution: gather the transformed rows at the sources, scale each by its edge's weight, scatter-add at
      the targets into zeros, add the bias row (`conv16` for 16 channels, `conv7` for 7);
    * the rectifier between the two layers (`relu16`).
  Each function is spelt operation by operation as @main spells it, so that a buffer of @main read back through
  its operations is one of these terms by unfolding.
-/
import proofs.«150052_j30219389894763_1_alg».proof.Proof.Gen.KernelIdeal

noncomputable section

namespace Cert.KernelIdeal.Graph

open Cert.KernelIdeal Cert.KernelIdeal.Gen Idealize.ShloMosaic

variable {F : FTy → Type} [FloatOps F]

/-- Row `r` (0 = sources, 1 = targets) of the edge list as a vector of 3 200 000 entries. -/
def edgeRow0 (e : IVec S2x3200000 32) : IVec S3200000 32 :=
  shapeCast S3200000 (extractStridedSlice S1x3200000 ![0, 0] e slices_S2x3200000_S1x3200000_0_0) shapeCasts_S1x3200000_S3200000
def edgeRow1 (e : IVec S2x3200000 32) : IVec S3200000 32 :=
  shapeCast S3200000 (extractStridedSlice S1x3200000 ![1, 0] e slices_S2x3200000_S1x3200000_1_0) shapeCasts_S1x3200000_S3200000

/-- The sources with the self loops `0 … 99999` appended. -/
def rowIdx (e : IVec S2x3200000 32) : IVec S3300000 32 :=
  concatenate S3300000 0 [⟨S3200000, edgeRow0 e⟩, ⟨S100000, iotaInDim S100000 32 0⟩] concatenates_S3200000_S100000_S3300000_d0
/-- The targets with the self loops appended. -/
def colIdx (e : IVec S2x3200000 32) : IVec S3300000 32 :=
  concatenate S3300000 0 [⟨S3200000, edgeRow1 e⟩, ⟨S100000, iotaInDim S100000 32 0⟩] concatenates_S3200000_S100000_S3300000_d0

/-- A node index as the gather takes it: a negative one has the node count added. -/
def wrapIdx (x : IVec S3300000 32) : IVec S3300000x1 32 :=
  broadcastInDim S3300000x1 ![0] bcast_S3300000_S3300000x1_0
    (select (cmpi .slt x (broadcastInDim S3300000 ![] bcast_S_S3300000 (constantI S_ 32 0#32)))
      (addi x (broadcastInDim S3300000 ![] bcast_S_S3300000 (constantI S_ 32 100000#32))) x)

/-- The in-degree of every node: ones added up at the targets. -/
def deg (col : IVec S3300000 32) : FVec F S100000 .f32 :=
  Host.scatterAdd scatter_S100000_S3300000x1_S3300000_n_0_0_1
    (broadcastInDim S100000 ![] bcast_S_S100000 (constant S_ .f32 0x00000000#32))
    (broadcastInDim S3300000x1 ![0] bcast_S3300000_S3300000x1_0 col)
    (broadcastInDim S3300000 ![] bcast_S_S3300000 (constant S_ .f32 0x3F800000#32))

/-- Where the degree is positive. -/
def degPos (col : IVec S3300000 32) : IVec S100000 1 :=
  cmpf (F := F) .ogt (deg col) (broadcastInDim S100000 ![] bcast_S_S100000 (constant S_ .f32 0x00000000#32))

/-- `deg^(-1/2)` where the degree is positive, zero elsewhere. -/
def dinv (col : IVec S3300000 32) : FVec F S100000 .f32 :=
  select (degPos (F := F) col) (Host.rsqrt (deg col)) (broadcastInDim S100000 ![] bcast_S_S100000 (id (constant S_ .f32 0x00000000#32)))

/-- Per edge, `d[source] · d[target]` for a per-node factor `d`. -/
def edgeNormOf (d : FVec F S100000 .f32) (row col : IVec S3300000 32) : FVec F S3300000 .f32 :=
  mulf (Host.gather gather_S100000_S3300000x1_S3300000_n_0_n_n_0_1_1 d (wrapIdx row))
    (Host.gather gather_S100000_S3300000x1_S3300000_n_0_n_n_0_1_1 d (wrapIdx col))

/-- Per edge, `dinv[source] · dinv[target]`. -/
def edgeNorm (row col : IVec S3300000 32) : FVec F S3300000 .f32 :=
  edgeNormOf (dinv col) row col

/-- One convolution over 16 channels: rows of `t` gathered at the sources, scaled by the edge weights, added up at the
    targets, plus the bias row. -/
def conv16 (t : FVec F S100000x16 .f32) (nrm : FVec F S3300000 .f32) (row col : IVec S3300000 32) (b : FVec F S16 .f32) :
    FVec F S100000x16 .f32 :=
  addf (Host.scatterAdd scatter_S100000x16_S3300000x1_S3300000x16_1_0_0_1
      (broadcastInDim S100000x16 ![] bcast_S_S100000x16 (constant S_ .f32 0x00000000#32))
      (broadcastInDim S3300000x1 ![0] bcast_S3300000_S3300000x1_0 col)
      (mulf (broadcastInDim S3300000x16 ![0, 1] bcast_S3300000x1_S3300000x16_0_1 (broadcastInDim S3300000x1 ![0] bcast_S3300000_S3300000x1_0 nrm))
        (Host.gather gather_S100000x16_S3300000x1_S3300000x16_1_0_n_n_0_1_116 t (wrapIdx row))))
    (broadcastInDim S100000x16 ![0, 1] bcast_S1x16_S100000x16_0_1 (broadcastInDim S1x16 ![1] bcast_S16_S1x16_1 b))

/-- The rectifier on 16 channels. -/
def relu16 (x : FVec F S100000x16 .f32) : FVec F S100000x16 .f32 :=
  maximumf x (broadcastInDim S100000x16 ![] bcast_S_S100000x16 (constant S_ .f32 0x00000000#32))

/-- One convolution over 7 channels. -/
def conv7 (t : FVec F S100000x7 .f32) (nrm : FVec F S3300000 .f32) (row col : IVec S3300000 32) (b : FVec F S7 .f32) :
    FVec F S100000x7 .f32 :=
  addf (Host.scatterAdd scatter_S100000x7_S3300000x1_S3300000x7_1_0_0_1
      (broadcastInDim S100000x7 ![] bcast_S_S100000x7 (constant S_ .f32 0x00000000#32))
      (broadcastInDim S3300000x1 ![0] bcast_S3300000_S3300000x1_0 col)
      (mulf (broadcastInDim S3300000x7 ![0, 1] bcast_S3300000x1_S3300000x7_0_1 (broadcastInDim S3300000x1 ![0] bcast_S3300000_S3300000x1_0 nrm))
        (Host.gather gather_S100000x7_S3300000x1_S3300000x7_1_0_n_n_0_1_17 t (wrapIdx row))))
    (broadcastInDim S100000x7 ![0, 1] bcast_S1x7_S100000x7_0_1 (broadcastInDim S1x7 ![1] bcast_S7_S1x7_1 b))

/-- The whole network from its two transformed arrays' producers: `lin1` and `lin2` are the two linear transforms
    (a matrix product each), everything else is the graph side above. -/
def network (lin1 : FVec F S100000x512 .f32 → FVec F S512x16 .f32 → FVec F S100000x16 .f32)
    (lin2 : FVec F S100000x16 .f32 → FVec F S16x7 .f32 → FVec F S100000x7 .f32)
    (x : FVec F S100000x512 .f32) (e : IVec S2x3200000 32) (w1 : FVec F S512x16 .f32) (b1 : FVec F S16 .f32)
    (w2 : FVec F S16x7 .f32) (b2 : FVec F S7 .f32) : FVec F S100000x7 .f32 :=
  conv7 (lin2 (relu16 (conv16 (lin1 x w1) (edgeNorm (rowIdx e) (colIdx e)) (rowIdx e) (colIdx e) b1)) w2)
    (edgeNorm (rowIdx e) (colIdx e)) (rowIdx e) (colIdx e) b2

end Cert.KernelIdeal.Graph

end
-- ==== Proof.LibPlainDot.lean ====
/-
  A plain matrix product read at an index, on the extended reals.

  For the dimension numbers `<[1], [0], [0], [1]>` with no batch axis (`DotDims.plain M K N`, or any record equal to
  it: an `M×K` left operand, a `K×N` right operand, the left's second axis contracted with the right's first) the
  entry `(a, b)` of the product is `∑ k, l[a,k] · r[k,b]`. Two operations compute it at the exact instance: a
  `tpu.matmul` into a zero accumulator and the host's `dot_general`. Both are stated here as equalities of whole
  arrays with one function, `rowsByCols l r`, so that a product computed block of rows by block of rows and the same
  product computed at once are compared through one name.
-/
import Idealize.ShloMosaic.Lib.ValueIdx
import Idealize.ShloMosaic.PureOps.Ideal.Laws

noncomputable section

namespace Cert.Lib.PlainDot

open Idealize.ShloMosaic Idealize.ShloMosaic.ValueIdx

/-- The product of an `M×K` array by a `K×N` array, index by index: entry `(a, b)` is `∑ k, l[a,k] · r[k,b]`. -/
def rowsByCols {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem rowsByCols_apply {M K N : ℕ} (l : (⟨2, ![M, K]⟩ : Shape).Idx → EReal) (r : (⟨2, ![K, N]⟩ : Shape).Idx → EReal)
    (j : (⟨2, ![M, N]⟩ : Shape).Idx) : rowsByCols l r j = ∑ k : Fin K, l (ix2 (j 0) k) * r (ix2 k (j 1)) := rfl

/-- The left operand's index at result index `j` and contraction position `q`: row `j 0` … -/
theorem lhsIdx_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and column the contraction position's one coordinate. -/
theorem lhsIdx_col {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: row the contraction position's one coordinate … -/
theorem rhsIdx_row {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and column `j 1`. -/
theorem rhsIdx_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the record's one-axis contraction shape, with the operands read at the record's operand indices, is
    the sum over `k < K` of `l[a,k] · r[k,b]`: the contraction index is its one coordinate, the left index at `(j, k)`
    is `(j 0, k)` and the right index is `(k, j 1)`. -/
theorem contr_sum {M K N : ℕ} (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = rowsByCols l r j := by
  subst hd
  unfold rowsByCols
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhsIdx_row j _
      | ⟨1, _⟩ => exact (lhsIdx_col j _).trans hk)
  have er : (DotDims.plain M K N).rhsIdx j ((contrEquiv1 (DotDims.plain M K N) K rfl rfl).symm k) = ix2 k (j 1) :=
    funext fun a => Fin.ext (by
      match a with
      | ⟨0, _⟩ => exact (rhsIdx_row j _).trans hk
      | ⟨1, _⟩ => exact rhsIdx_col j _)
  exact congrArg₂ (· * ·) (congrArg l el) (congrArg r er)

/-- A `tpu.matmul` with plain dimension numbers into the zero accumulator is the product, whatever the operands'
    float formats and the precision attribute. -/
theorem matmul_zero_eq {M K N : ℕ} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) :
    FloatOps.matmul d prec l r (constant (F := Ideal) ⟨2, ![M, N]⟩ .f32 0x00000000#32) = rowsByCols l r :=
  funext fun j => (Ideal.matmul_constant_zero_apply d prec l r j).trans (contr_sum d hd l r j)

/-- The host's `dot_general` with plain dimension numbers is the product, whatever the precision and the schedule. -/
theorem dotGeneral_eq {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) :
    FloatOps.dotGeneral d prec sched l r = rowsByCols l r :=
  funext fun j => (Ideal.dotGeneral_apply d prec sched l r j).trans (contr_sum d hd l r j)

/-- Two products agree at two indices when their operands agree along the row and the column read there: if
    `l'[j' 0, k] = l[j 0, k]` and `r'[k, j' 1] = r[k, j 1]` for every `k`, then `(l' · r')[j'] = (l · r)[j]`. In
    particular rows of a product are the product of the rows: with `l'` a block of rows of `l` and `r' = r`, the
    block's product at `(p, b)` is the whole product at `(o + p, b)`. -/
theorem rowsByCols_congr {M M' K N N' : ℕ} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j' : (⟨2, ![M', N']⟩ : Shape).Idx) (j : (⟨2, ![M, N]⟩ : Shape).Idx)
    (hl : ∀ k : Fin K, l' (ix2 (j' 0) k) = l (ix2 (j 0) k)) (hr : ∀ k : Fin K, r' (ix2 k (j' 1)) = r (ix2 k (j 1))) :
    rowsByCols l' r' j' = rowsByCols l r j := by
  unfold rowsByCols
  exact Finset.sum_congr rfl fun k _ => by rw [hl k, hr k]

end Cert.Lib.PlainDot

end
-- ==== Proof.Layer1Grid.lean ====
/-
  The first linear layer's grid, read as one array.

  The grid has 25 points. Point `t` loads rows `4000·t … 4000·t + 3999` of the node features (100000×512) and the whole
  weight matrix (512×16), multiplies them into a zero accumulator and writes the 4000×16 result back as the same
  rows of the output. Over the extended reals the rows of a product are the product of the rows, so the 25 blocks
  written back are the blocks of ONE array, the whole product `features · weights`, and they tile it.
-/
import proofs.«150052_j30219389894763_1_alg».proof.Proof.Gen.KernelIdeal.Frame
import proofs.«150052_j30219389894763_1_alg».proof.Proof.LibPlainDot
import Idealize.ShloMosaic.Lib.Pipeline.Value

set_option maxRecDepth 16384

noncomputable section

namespace Cert.KernelIdeal.Layer1

open Cert.KernelIdeal Cert.KernelIdeal.Gen Cert.Lib.PlainDot
open Idealize.ShloMosaic Idealize.ShloMosaic.TcCoe Idealize.SL.Sem Idealize.ShloMosaic.ValueIdx
open Idealize.ShloMosaic.Pipeline (Dat)

-- The buffer contents the grid is entered from: any. Nothing below depends on what they are.
variable (V : (c : Dev nD) → (b : Ref sig .tc) → Buf (Elt Ideal) ((c : Thread nD τ).loc b))

theorem zero_offsets : (![0, 0] : Fin 2 → Nat) = fun _ => 0 := funext fun a => by fin_cases a <;> rfl

/-- The body's dimension numbers are the plain ones: the left operand's columns against the right operand's rows. -/
theorem dims_plain : dot_S4000x512_S512x16_S4000x16_1_0_0_1_n_n = DotDims.plain 4000 512 16 := rfl

/-- The whole product: entry `(a, b)` is `∑ k, l[a,k] · r[k,b]` over all 100000 rows of the left operand. -/
abbrev product (c : Dev nD) : S100000x16.Idx → EReal :=
  rowsByCols (M := 100000) (K := 512) (N := 16) (V c main_arg0) (V c main_arg2)

/-- What the body stores, from the two blocks it loads: the product of the 4000 rows by the whole right operand
    (rounding an operand to bf16 is the identity on extended reals, and the accumulator starts at zero). -/
theorem payload_eq (x0 : Vec Ideal S4000x512 .f32) (x1 : Vec Ideal S512x16 .f32) :
    k0_pay1 x0 x1 = rowsByCols (M := 4000) (K := 512) (N := 16) x0 x1 :=
  matmul_zero_eq dot_S4000x512_S512x16_S4000x16_1_0_0_1_n_n dims_plain none _ _

/-- The printed index maps over the 25 points: the left operand's and the result's row block is the point's number,
    every column block is block 0, and the right operand is always its one block. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is rows `4000·t … 4000·t + 3999` of the whole product: the rows of a product are the
    product of the rows. -/
theorem flushed_eq (c : Dev nD) (t : Fin cfg0.N) :
    (dat0 V c).flushed 2 t = ((cfg0.win 2).blk t).view.read (Elt Ideal) (product V c) := by
  show (cfg0.win 2).cut (grid0.coords t) ((dat0 V c).after 2 t) = _
  rw [after0_2]
  unfold out0_2
  rw [View.canon_unit_zero zero_offsets]
  simp only [View.ld_unit_zero (S := S4000x512) zero_offsets, View.ld_unit_zero (S := S512x16) zero_offsets]
  rw [payload_eq]
  obtain ⟨e0, e1, e2, e3, e4, e5⟩ := index_maps t
  funext y
  show rowsByCols (M := 4000) (K := 512) (N := 16) (iblk0 V c 0 t) (iblk0 V c 1 t) y
      = rowsByCols (M := 100000) (K := 512) (N := 16) (V c main_arg0) (V c main_arg2) (((cfg0.win 2).blk t).view.emb y)
  refine rowsByCols_congr _ _ _ _ y _ (fun k => ?_) (fun k => ?_)
  · show V c main_arg0 (((cfg0.win 0).blk t).view.emb (ix2 (y 0) k)) = V c main_arg0 (ix2 ((((cfg0.win 2).blk t).view.emb y) 0) k)
    refine congrArg (V c main_arg0) (funext fun a => Fin.ext ?_)
    match a with
    | ⟨0, _⟩ => show win0_0.index t (0 : Fin 2) * 4000 + 1 * (y 0).val = win0_2.index t (0 : Fin 2) * 4000 + 1 * (y 0).val; omega
    | ⟨1, _⟩ => show win0_0.index t (1 : Fin 2) * 512 + 1 * k.val = k.val; omega
  · show V c main_arg2 (((cfg0.win 1).blk t).view.emb (ix2 k (y 1))) = V c main_arg2 (ix2 k ((((cfg0.win 2).blk t).view.emb y) 1))
    refine congrArg (V c main_arg2) (funext fun a => Fin.ext ?_)
    match a with
    | ⟨0, _⟩ => show win0_1.index t (0 : Fin 2) * 512 + 1 * k.val = k.val; omega
    | ⟨1, _⟩ => show win0_1.index t (1 : Fin 2) * 16 + 1 * (y 1).val = win0_2.index t (1 : Fin 2) * 16 + 1 * (y 1).val; omega

/-- An index of the result array is in point `t`'s block iff each coordinate is in the block's range on its axis. -/
theorem mem_blk (t : Fin cfg0.N) (i : S100000x16.Idx) :
    i ∈ ((cfg0.win 2).blk t).view.set ↔ ∀ a : Fin 2, win0_2.index t a * S4000x16.size a ≤ (i a).val ∧ (i a).val < win0_2.index t a * S4000x16.size a + S4000x16.size a := by
  show i ∈ ((View.whole main_v30).slice (win0_2.rect t)).set ↔ _
  rw [View.set_slice_whole, Rect.mem_set_unit]
  exact Iff.rfl

/-- Every row of the result is in some point's block: row `r` in the block of point `r / 4000`. -/
theorem covered (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 25 := N_0
  let t : Fin cfg0.N := ⟨(i 0).val / 4000, by rw [hN]; omega⟩
  have ht : t.val = (i 0).val / 4000 := rfl
  obtain ⟨e0, e1, e2, e3, e4, e5⟩ := index_maps t
  refine ⟨t, flush0_2 t, ?_⟩
  rw [mem_blk]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 16 ≤ (i 1).val ∧ (i 1).val < win0_2.index t (1 : Fin 2) * 16 + 16; omega

/-- THE ARRAY the grid leaves: the whole product of the two arrays it was entered with. -/
theorem final (c : Dev nD) : (dat0 V c).arrAt 2 cfg0.N = product V c :=
  (dat0 V c).arrAt_eq_of_cover 2 (product V c) (fun t _ => flushed_eq V c t) covered

end Cert.KernelIdeal.Layer1

end
-- ==== Proof.Layer2Grid.lean ====
/-
  The second linear layer's grid, read as one array.

  The grid has 25 points. Point `t` loads rows `4000·t … 4000·t + 3999` of the hidden activations (100000×16) and the
  whole weight matrix (16×7), multiplies them into a zero accumulator and writes the 4000×7 result back as the same
  rows of the output. Over the extended reals the rows of a product are the product of the rows, so the 25 blocks
  written back are the blocks of ONE array, the whole product `hidden · weights`, and they tile it.
-/
import proofs.«150052_j30219389894763_1_alg».proof.Proof.Gen.KernelIdeal.Frame
import proofs.«150052_j30219389894763_1_alg».proof.Proof.LibPlainDot
import Idealize.ShloMosaic.Lib.Pipeline.Value

set_option maxRecDepth 16384

noncomputable section

namespace Cert.KernelIdeal.Layer2

open Cert.KernelIdeal Cert.KernelIdeal.Gen Cert.Lib.PlainDot
open Idealize.ShloMosaic Idealize.ShloMosaic.TcCoe Idealize.SL.Sem Idealize.ShloMosaic.ValueIdx
open Idealize.ShloMosaic.Pipeline (Dat)

-- The buffer contents the grid is entered from: any. Nothing below depends on what they are.
variable (V : (c : Dev nD) → (b : Ref sig .tc) → Buf (Elt Ideal) ((c : Thread nD τ).loc b))

theorem zero_offsets : (![0, 0] : Fin 2 → Nat) = fun _ => 0 := funext fun a => by fin_cases a <;> rfl

/-- The body's dimension numbers are the plain ones: the left operand's columns against the right operand's rows. -/
theorem dims_plain : dot_S4000x16_S16x7_S4000x7_1_0_0_1_n_n = DotDims.plain 4000 16 7 := rfl

/-- The whole product: entry `(a, b)` is `∑ k, l[a,k] · r[k,b]` over all 100000 rows of the left operand. -/
abbrev product (c : Dev nD) : S100000x7.Idx → EReal :=
  rowsByCols (M := 100000) (K := 16) (N := 7) (V c main_v47) (V c main_arg4)

/-- What the body stores, from the two blocks it loads: the product of the 4000 rows by the whole right operand
    (the cast to the block's own shape and the rounding of an operand to bf16 are the identity on extended reals, and the
    accumulator starts at zero). -/
theorem payload_eq (x0 : Vec Ideal S4000x16 .f32) (x1 : Vec Ideal S16x7 .f32) :
    k1_pay1 x0 x1 = rowsByCols (M := 4000) (K := 16) (N := 7) x0 x1 := by
  unfold k1_pay1
  rw [shapeCast_self]
  exact matmul_zero_eq dot_S4000x16_S16x7_S4000x7_1_0_0_1_n_n dims_plain none _ _

/-- The printed index maps over the 25 points: the left operand's and the result's row block is the point's number,
    every column block is block 0, and the right operand is always its one block. -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- WHAT POINT `t` WRITES BACK is rows `4000·t … 4000·t + 3999` of the whole product: the rows of a product are the
    product of the rows. -/
theorem flushed_eq (c : Dev nD) (t : Fin cfg1.N) :
    (dat1 V c).flushed 2 t = ((cfg1.win 2).blk t).view.read (Elt Ideal) (product V c) := by
  show (cfg1.win 2).cut (grid1.coords t) ((dat1 V c).after 2 t) = _
  rw [after1_2]
  unfold out1_2
  rw [View.canon_unit_zero zero_offsets]
  simp only [View.ld_unit_zero (S := S4000x16) zero_offsets, View.ld_unit_zero (S := S16x7) zero_offsets]
  rw [payload_eq]
  obtain ⟨e0, e1, e2, e3, e4, e5⟩ := index_maps t
  funext y
  show rowsByCols (M := 4000) (K := 16) (N := 7) (iblk1 V c 0 t) (iblk1 V c 1 t) y
      = rowsByCols (M := 100000) (K := 16) (N := 7) (V c main_v47) (V c main_arg4) (((cfg1.win 2).blk t).view.emb y)
  refine rowsByCols_congr _ _ _ _ y _ (fun k => ?_) (fun k => ?_)
  · show V c main_v47 (((cfg1.win 0).blk t).view.emb (ix2 (y 0) k)) = V c main_v47 (ix2 ((((cfg1.win 2).blk t).view.emb y) 0) k)
    refine congrArg (V c main_v47) (funext fun a => Fin.ext ?_)
    match a with
    | ⟨0, _⟩ => show win1_0.index t (0 : Fin 2) * 4000 + 1 * (y 0).val = win1_2.index t (0 : Fin 2) * 4000 + 1 * (y 0).val; omega
    | ⟨1, _⟩ => show win1_0.index t (1 : Fin 2) * 16 + 1 * k.val = k.val; omega
  · show V c main_arg4 (((cfg1.win 1).blk t).view.emb (ix2 k (y 1))) = V c main_arg4 (ix2 k ((((cfg1.win 2).blk t).view.emb y) 1))
    refine congrArg (V c main_arg4) (funext fun a => Fin.ext ?_)
    match a with
    | ⟨0, _⟩ => show win1_1.index t (0 : Fin 2) * 16 + 1 * k.val = k.val; omega
    | ⟨1, _⟩ => show win1_1.index t (1 : Fin 2) * 7 + 1 * (y 1).val = win1_2.index t (1 : Fin 2) * 7 + 1 * (y 1).val; omega

/-- An index of the result array is in point `t`'s block iff each coordinate is in the block's range on its axis. -/
theorem mem_blk (t : Fin cfg1.N) (i : S100000x7.Idx) :
    i ∈ ((cfg1.win 2).blk t).view.set ↔ ∀ a : Fin 2, win1_2.index t a * S4000x7.size a ≤ (i a).val ∧ (i a).val < win1_2.index t a * S4000x7.size a + S4000x7.size a := by
  show i ∈ ((View.whole main_v48).slice (win1_2.rect t)).set ↔ _
  rw [View.set_slice_whole, Rect.mem_set_unit]
  exact Iff.rfl

/-- Every row of the result is in some point's block: row `r` in the block of point `r / 4000`. -/
theorem covered (i : S100000x7.Idx) : ∃ t : Fin cfg1.N, (cfg1.win 2).flush t = true ∧ i ∈ ((cfg1.win 2).blk t).view.set := by
  have hi0 : (i 0).val < 100000 := (i 0).isLt
  have hi1 : (i 1).val < 7 := (i 1).isLt
  have hN : cfg1.N = 25 := N_1
  let t : Fin cfg1.N := ⟨(i 0).val / 4000, by rw [hN]; omega⟩
  have ht : t.val = (i 0).val / 4000 := rfl
  obtain ⟨e0, e1, e2, e3, e4, e5⟩ := index_maps t
  refine ⟨t, flush1_2 t, ?_⟩
  rw [mem_blk]
  intro a
  match a with
  | ⟨0, _⟩ => show win1_2.index t (0 : Fin 2) * 4000 ≤ (i 0).val ∧ (i 0).val < win1_2.index t (0 : Fin 2) * 4000 + 4000; omega
  | ⟨1, _⟩ => show win1_2.index t (1 : Fin 2) * 7 ≤ (i 1).val ∧ (i 1).val < win1_2.index t (1 : Fin 2) * 7 + 7; omega

/-- THE ARRAY the grid leaves: the whole product of the two arrays it was entered with. -/
theorem final (c : Dev nD) : (dat1 V c).arrAt 2 cfg1.N = product V c :=
  (dat1 V c).arrAt_eq_of_cover 2 (product V c) (fun t _ => flushed_eq V c t) covered

end Cert.KernelIdeal.Layer2

end
-- ==== Proof.Chain.lean ====
/-
  The idealized kernel program's buffers at the boundaries of its eight segments, read back.

  Between the launch and the first grid the host operations compute, from the edge list alone, the sources and
  targets with self loops and the per-edge weights; the first grid leaves the product `features · W1`; the next
  operations convolve it, add the first bias and rectify; the second grid leaves the product `hidden · W2`; the last
  operations convolve that and add the second bias. Each lemma reads ONE buffer at ONE boundary as a function of the
  buffers at the boundary before, by walking the stretch's operations back from the buffer; the grids' arrays are the
  whole products; everything else passes through a grid untouched. The host stretches are read for any float
  values (their operations stay names); only the two products are read over the extended reals.
-/
import proofs.«150052_j30219389894763_1_alg».proof.Proof.Gen.KernelIdeal.Frame
import proofs.«150052_j30219389894763_1_alg».proof.Proof.Graph
import proofs.«150052_j30219389894763_1_alg».proof.Proof.Layer1Grid
import proofs.«150052_j30219389894763_1_alg».proof.Proof.Layer2Grid
import Idealize.ShloMosaic.Lib.StableHlo.Run
import Idealize.ShloMosaic.PureOps.Ideal

set_option maxRecDepth 16384

noncomputable section

namespace Cert.KernelIdeal.Chain

open Cert.KernelIdeal Cert.KernelIdeal.Gen Cert.KernelIdeal.Graph Cert.Lib.PlainDot
open Idealize.ShloMosaic Idealize.ShloMosaic.TcCoe Idealize.SL.Sem Idealize.ShloMosaic.StableHlo

section Stretches

variable {F : FTy → Type} [FloatOps F]
variable (m : (ℓ : Loc nD τ sig) → Buf (Elt F) ℓ) (ρ : Dev nD → PrngReg)

/-! ## Before the first grid: everything is a function of the edge list -/

theorem at1_row (c : Dev nD) : (W1 m ρ c (Proc.devRef .tc main_v3) : IVec S3300000 32) = rowIdx (m ((c : Thread nD τ).loc main_arg1)) := by
  dsimp only [W1, W0, hostOps0]
  after_results
  rfl
theorem at1_col (c : Dev nD) : (W1 m ρ c (Proc.devRef .tc main_v6) : IVec S3300000 32) = colIdx (m ((c : Thread nD τ).loc main_arg1)) := by
  dsimp only [W1, W0, hostOps0]
  after_results
  rfl
theorem at1_pos (c : Dev nD) : (W1 m ρ c (Proc.devRef .tc main_v12) : IVec S100000 1) = degPos (F := F) (colIdx (m ((c : Thread nD τ).loc main_arg1))) := by
  dsimp only [W1, W0, hostOps0]
  after_results
  rfl
theorem at1_rsqrt (c : Dev nD) : (W1 m ρ c (Proc.devRef .tc main_v13) : FVec F S100000 .f32) = Host.rsqrt (deg (F := F) (colIdx (m ((c : Thread nD τ).loc main_arg1)))) := by
  dsimp only [W1, W0, hostOps0]
  after_results
  rfl
theorem at1_zero (c : Dev nD) : (W1 m ρ c (Proc.devRef .tc main_cst_2) : FVec F S_ .f32) = constant (F := F) S_ .f32 0x00000000#32 := by
  dsimp only [W1, W0, hostOps0]
  after_results
  all_goals rfl

theorem at2_dinv (c : Dev nD) : (W2 m ρ c (Proc.devRef .tc main_v14) : FVec F S100000 .f32) = dinv (F := F) (colIdx (m ((c : Thread nD τ).loc main_arg1))) := by
  have e : (W2 m ρ c (Proc.devRef .tc main_v14) : FVec F S100000 .f32)
      = select (W1 m ρ c (Proc.devRef .tc main_v12)) (W1 m ρ c (Proc.devRef .tc main_v13)) (broadcastInDim S100000 ![] bcast_S_S100000 (id (W1 m ρ c (Proc.devRef .tc main_cst_2)))) := by
    dsimp only [W2]
    generalize W1 m ρ c = V
    dsimp only [hostOps0_1]
    after_results_simp
    all_goals rfl
  rw [e, at1_pos, at1_rsqrt, at1_zero]
  rfl
theorem at2_row (c : Dev nD) : (W2 m ρ c (Proc.devRef .tc main_v3) : IVec S3300000 32) = rowIdx (m ((c : Thread nD τ).loc main_arg1)) := by
  refine Eq.trans ?_ (at1_row m ρ c)
  dsimp only [W2]
  generalize W1 m ρ c = V
  dsimp only [hostOps0_1]
  after_results_simp
  all_goals rfl
theorem at2_col (c : Dev nD) : (W2 m ρ c (Proc.devRef .tc main_v6) : IVec S3300000 32) = colIdx (m ((c : Thread nD τ).loc main_arg1)) := by
  refine Eq.trans ?_ (at1_col m ρ c)
  dsimp only [W2]
  generalize W1 m ρ c = V
  dsimp only [hostOps0_1]
  after_results_simp
  all_goals rfl

theorem at3_row (c : Dev nD) : (W3 m ρ c (Proc.devRef .tc main_v3) : IVec S3300000 32) = rowIdx (m ((c : Thread nD τ).loc main_arg1)) := by
  refine Eq.trans ?_ (at2_row m ρ c)
  dsimp only [W3]
  generalize W2 m ρ c = V
  dsimp only [hostOps0_2]
  after_results_simp
  all_goals rfl
theorem at3_col (c : Dev nD) : (W3 m ρ c (Proc.devRef .tc main_v6) : IVec S3300000 32) = colIdx (m ((c : Thread nD τ).loc main_arg1)) := by
  refine Eq.trans ?_ (at2_col m ρ c)
  dsimp only [W3]
  generalize W2 m ρ c = V
  dsimp only [hostOps0_2]
  after_results_simp
  all_goals rfl

theorem at3_norm (c : Dev nD) : (W3 m ρ c (Proc.devRef .tc main_v29) : FVec F S3300000 .f32) = (edgeNorm (F := F) (rowIdx (m ((c : Thread nD τ).loc main_arg1))) (colIdx (m ((c : Thread nD τ).loc main_arg1)))) := by
  have e : (W3 m ρ c (Proc.devRef .tc main_v29) : FVec F S3300000 .f32)
      = edgeNormOf (F := F) (W2 m ρ c (Proc.devRef .tc main_v14)) (W2 m ρ c (Proc.devRef .tc main_v3)) (W2 m ρ c (Proc.devRef .tc main_v6)) := by
    dsimp only [W3]
    generalize W2 m ρ c = V
    dsimp only [hostOps0_2]
    after_results_simp
    unfold edgeNormOf wrapIdx
    rfl
  rw [e, at2_dinv, at2_row, at2_col]
  rfl

theorem at3_arg0 (c : Dev nD) : W3 m ρ c (Proc.devRef .tc main_arg0) = m ((c : Thread nD τ).loc main_arg0) := by
  dsimp only [W3, W2, W1, W0, hostOps0_2, hostOps0_1, hostOps0]
  after_results_simp
  all_goals rfl
theorem at3_arg2 (c : Dev nD) : W3 m ρ c (Proc.devRef .tc main_arg2) = m ((c : Thread nD τ).loc main_arg2) := by
  dsimp only [W3, W2, W1, W0, hostOps0_2, hostOps0_1, hostOps0]
  after_results_simp
  all_goals rfl
theorem at3_arg3 (c : Dev nD) : W3 m ρ c (Proc.devRef .tc main_arg3) = m ((c : Thread nD τ).loc main_arg3) := by
  dsimp only [W3, W2, W1, W0, hostOps0_2, hostOps0_1, hostOps0]
  after_results_simp
  all_goals rfl
theorem at3_arg4 (c : Dev nD) : W3 m ρ c (Proc.devRef .tc main_arg4) = m ((c : Thread nD τ).loc main_arg4) := by
  dsimp only [W3, W2, W1, W0, hostOps0_2, hostOps0_1, hostOps0]
  after_results_simp
  all_goals rfl
theorem at3_arg5 (c : Dev nD) : W3 m ρ c (Proc.devRef .tc main_arg5) = m ((c : Thread nD τ).loc main_arg5) := by
  dsimp only [W3, W2, W1, W0, hostOps0_2, hostOps0_1, hostOps0]
  after_results_simp
  all_goals rfl

/-! ## Through the first grid: every buffer but its array is as it was -/

theorem at4_row (c : Dev nD) : (W4 m ρ c (Proc.devRef .tc main_v3) : IVec S3300000 32) = rowIdx (m ((c : Thread nD τ).loc main_arg1)) :=
  (W4_of_ne m ρ c main_v3 (by decide)).trans (at3_row m ρ c)
theorem at4_col (c : Dev nD) : (W4 m ρ c (Proc.devRef .tc main_v6) : IVec S3300000 32) = colIdx (m ((c : Thread nD τ).loc main_arg1)) :=
  (W4_of_ne m ρ c main_v6 (by decide)).trans (at3_col m ρ c)
theorem at4_norm (c : Dev nD) : (W4 m ρ c (Proc.devRef .tc main_v29) : FVec F S3300000 .f32) = (edgeNorm (F := F) (rowIdx (m ((c : Thread nD τ).loc main_arg1))) (colIdx (m ((c : Thread nD τ).loc main_arg1)))) :=
  (W4_of_ne m ρ c main_v29 (by decide)).trans (at3_norm m ρ c)
theorem at4_arg3 (c : Dev nD) : W4 m ρ c (Proc.devRef .tc main_arg3) = m ((c : Thread nD τ).loc main_arg3) :=
  (W4_of_ne m ρ c main_arg3 (by decide)).trans (at3_arg3 m ρ c)
theorem at4_arg4 (c : Dev nD) : W4 m ρ c (Proc.devRef .tc main_arg4) = m ((c : Thread nD τ).loc main_arg4) :=
  (W4_of_ne m ρ c main_arg4 (by decide)).trans (at3_arg4 m ρ c)
theorem at4_arg5 (c : Dev nD) : W4 m ρ c (Proc.devRef .tc main_arg5) = m ((c : Thread nD τ).loc main_arg5) :=
  (W4_of_ne m ρ c main_arg5 (by decide)).trans (at3_arg5 m ρ c)

/-! ## Before the second grid: the first convolution, its bias and the rectifier -/

theorem at6_hidden (c : Dev nD) : (W6 m ρ c (Proc.devRef .tc main_v47) : FVec F S100000x16 .f32)
    = relu16 (F := F) (conv16 (W4 m ρ c (Proc.devRef .tc main_v30)) (W4 m ρ c (Proc.devRef .tc main_v29)) (W4 m ρ c (Proc.devRef .tc main_v3)) (W4 m ρ c (Proc.devRef .tc main_v6)) (W4 m ρ c (Proc.devRef .tc main_arg3))) := by
  dsimp only [W6, W5]
  generalize W4 m ρ c = V
  dsimp only [hostOps1_1, hostOps1]
  after_results_simp
  unfold relu16 conv16 wrapIdx
  rfl

theorem at6_keep_v3 (c : Dev nD) : W6 m ρ c (Proc.devRef .tc main_v3) = W4 m ρ c (Proc.devRef .tc main_v3) := by
  dsimp only [W6, W5]
  generalize W4 m ρ c = V
  dsimp only [hostOps1_1, hostOps1]
  after_results_simp
  all_goals rfl
theorem at6_keep_v6 (c : Dev nD) : W6 m ρ c (Proc.devRef .tc main_v6) = W4 m ρ c (Proc.devRef .tc main_v6) := by
  dsimp only [W6, W5]
  generalize W4 m ρ c = V
  dsimp only [hostOps1_1, hostOps1]
  after_results_simp
  all_goals rfl
theorem at6_keep_v29 (c : Dev nD) : W6 m ρ c (Proc.devRef .tc main_v29) = W4 m ρ c (Proc.devRef .tc main_v29) := by
  dsimp only [W6, W5]
  generalize W4 m ρ c = V
  dsimp only [hostOps1_1, hostOps1]
  after_results_simp
  all_goals rfl
theorem at6_keep_arg4 (c : Dev nD) : W6 m ρ c (Proc.devRef .tc main_arg4) = W4 m ρ c (Proc.devRef .tc main_arg4) := by
  dsimp only [W6, W5]
  generalize W4 m ρ c = V
  dsimp only [hostOps1_1, hostOps1]
  after_results_simp
  all_goals rfl
theorem at6_keep_arg5 (c : Dev nD) : W6 m ρ c (Proc.devRef .tc main_arg5) = W4 m ρ c (Proc.devRef .tc main_arg5) := by
  dsimp only [W6, W5]
  generalize W4 m ρ c = V
  dsimp only [hostOps1_1, hostOps1]
  after_results_simp
  all_goals rfl

/-! ## Through the second grid -/

theorem at7_keep_v3 (c : Dev nD) : W7 m ρ c (Proc.devRef .tc main_v3) = W6 m ρ c (Proc.devRef .tc main_v3) :=
  W7_of_ne m ρ c main_v3 (by decide)
theorem at7_keep_v6 (c : Dev nD) : W7 m ρ c (Proc.devRef .tc main_v6) = W6 m ρ c (Proc.devRef .tc main_v6) :=
  W7_of_ne m ρ c main_v6 (by decide)
theorem at7_keep_v29 (c : Dev nD) : W7 m ρ c (Proc.devRef .tc main_v29) = W6 m ρ c (Proc.devRef .tc main_v29) :=
  W7_of_ne m ρ c main_v29 (by decide)
theorem at7_keep_arg5 (c : Dev nD) : W7 m ρ c (Proc.devRef .tc main_arg5) = W6 m ρ c (Proc.devRef .tc main_arg5) :=
  W7_of_ne m ρ c main_arg5 (by decide)

/-! ## The result: the second convolution and its bias -/

theorem at8_out (c : Dev nD) : (W8 m ρ c (Proc.devRef .tc main_v64) : FVec F S100000x7 .f32)
    = conv7 (F := F) (W7 m ρ c (Proc.devRef .tc main_v48)) (W7 m ρ c (Proc.devRef .tc main_v29)) (W7 m ρ c (Proc.devRef .tc main_v3)) (W7 m ρ c (Proc.devRef .tc main_v6)) (W7 m ρ c (Proc.devRef .tc main_arg5)) := by
  dsimp only [W8]
  generalize W7 m ρ c = V
  dsimp only [hostOps2]
  after_results_simp
  unfold conv7 wrapIdx
  rfl

end Stretches

section Products

variable (m : (ℓ : Loc nD τ sig) → Buf (Elt Ideal) ℓ) (ρ : Dev nD → PrngReg)

/-! ## The two grids' arrays, over the extended reals -/

theorem at4_lin (c : Dev nD) : (W4 m ρ c (Proc.devRef .tc main_v30) : FVec Ideal S100000x16 .f32)
    = rowsByCols (M := 100000) (K := 512) (N := 16) (m ((c : Thread nD τ).loc main_arg0)) (m ((c : Thread nD τ).loc main_arg2)) := by
  refine (W4_arr m ρ c 2).trans ((Layer1.final (V3 m ρ) c).trans ?_)
  show rowsByCols (M := 100000) (K := 512) (N := 16) (W3 m ρ c (Proc.devRef .tc main_arg0)) (W3 m ρ c (Proc.devRef .tc main_arg2)) = _
  rw [at3_arg0, at3_arg2]

theorem at7_lin (c : Dev nD) : (W7 m ρ c (Proc.devRef .tc main_v48) : FVec Ideal S100000x7 .f32)
    = rowsByCols (M := 100000) (K := 16) (N := 7) (W6 m ρ c (Proc.devRef .tc main_v47)) (W6 m ρ c (Proc.devRef .tc main_arg4)) :=
  (W7_arr m ρ c 2).trans (Layer2.final (V6 m ρ) c)

/-- The two linear transforms as the grids compute them. -/
abbrev lin1 : FVec Ideal S100000x512 .f32 → FVec Ideal S512x16 .f32 → FVec Ideal S100000x16 .f32 :=
  fun x w => rowsByCols (M := 100000) (K := 512) (N := 16) x w
abbrev lin2 : FVec Ideal S100000x16 .f32 → FVec Ideal S16x7 .f32 → FVec Ideal S100000x7 .f32 :=
  fun x w => rowsByCols (M := 100000) (K := 16) (N := 7) x w

/-- THE RESULT BUFFER after the last segment is the whole network of the launch contents of the six arguments,
    with both linear transforms the plain matrix products. -/
theorem result_eq (c : Dev nD) : (W8 m ρ c (Proc.devRef .tc main_v64) : FVec Ideal S100000x7 .f32)
    = network (F := Ideal) lin1 lin2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [at8_out, at7_lin, at7_keep_v3, at7_keep_v6, at7_keep_v29, at7_keep_arg5,
    at6_hidden, at6_keep_v3, at6_keep_v6, at6_keep_v29, at6_keep_arg4, at6_keep_arg5,
    at4_lin, at4_row, at4_col, at4_norm, at4_arg3, at4_arg4, at4_arg5]
  rfl

end Products

end Cert.KernelIdeal.Chain

end
-- ==== Proof.RefValue.lean ====
/-
  The reference program's result is the same network with the host's matrix products.

  The reference's run ends with its result buffer at the composed term of all 83 host operations of the arguments.
  That term is the network of `Graph`: the same edge-list preprocessing, the same two convolutions, biases and
  rectifier, around two `dot_general`s; and a `dot_general` contracting the left operand's columns with the right
  operand's rows is, over the extended reals, the plain product `∑ k, l[a,k] · r[k,b]`, which is what the kernel's
  two grids leave.
-/
import proofs.«150052_j30219389894763_1_alg».proof.Proof.ReferenceRun
import proofs.«150052_j30219389894763_1_alg».proof.Proof.Graph
import proofs.«150052_j30219389894763_1_alg».proof.Proof.LibPlainDot
import Idealize.ShloMosaic.PureOps.Ideal

set_option maxRecDepth 16384

noncomputable section

namespace Cert.ReferenceIdeal.Net

open Cert.KernelIdeal.Graph Cert.Lib.PlainDot
open Idealize.ShloMosaic Idealize.ShloMosaic.TcCoe Idealize.SL.Sem

/-- The reference's two linear transforms: the host's `dot_general`s. -/
abbrev dot1 : FVec Ideal Cert.KernelIdeal.S100000x512 .f32 → FVec Ideal Cert.KernelIdeal.S512x16 .f32 → FVec Ideal Cert.KernelIdeal.S100000x16 .f32 :=
  fun x w => Host.dotGeneral (F := Ideal) Cert.ReferenceIdeal.dot_S100000x512_S512x16_S100000x16_1_0_0_1_n_n none x w
abbrev dot2 : FVec Ideal Cert.KernelIdeal.S100000x16 .f32 → FVec Ideal Cert.KernelIdeal.S16x7 .f32 → FVec Ideal Cert.KernelIdeal.S100000x7 .f32 :=
  fun x w => Host.dotGeneral (F := Ideal) Cert.ReferenceIdeal.dot_S100000x16_S16x7_S100000x7_1_0_0_1_n_n none x w

/-- The plain products. -/
abbrev lin1 : FVec Ideal Cert.KernelIdeal.S100000x512 .f32 → FVec Ideal Cert.KernelIdeal.S512x16 .f32 → FVec Ideal Cert.KernelIdeal.S100000x16 .f32 :=
  fun x w => rowsByCols (M := 100000) (K := 512) (N := 16) x w
abbrev lin2 : FVec Ideal Cert.KernelIdeal.S100000x16 .f32 → FVec Ideal Cert.KernelIdeal.S16x7 .f32 → FVec Ideal Cert.KernelIdeal.S100000x7 .f32 :=
  fun x w => rowsByCols (M := 100000) (K := 16) (N := 7) x w

/-- Each `dot_general` is the plain product. -/
theorem dot1_eq : dot1 = lin1 :=
  funext fun x => funext fun w => dotGeneral_eq Cert.ReferenceIdeal.dot_S100000x512_S512x16_S100000x16_1_0_0_1_n_n rfl none .single x w
theorem dot2_eq : dot2 = lin2 :=
  funext fun x => funext fun w => dotGeneral_eq Cert.ReferenceIdeal.dot_S100000x16_S16x7_S100000x7_1_0_0_1_n_n rfl none .single x w

set_option maxHeartbeats 4000000 in
/-- The run's composed term is the network with the host's products: the two sides are one tree of operations. -/
theorem result_term (m : (ℓ : Loc Cert.ReferenceIdeal.nD Cert.ReferenceIdeal.τ Cert.ReferenceIdeal.sig) → Buf (Elt Ideal) ℓ) (c : Dev Cert.ReferenceIdeal.nD) :
    (Cert.ReferenceIdeal.ValueP.res_main_v64 (F := Ideal) m c : FVec Ideal Cert.KernelIdeal.S100000x7 .f32)
      = network dot1 dot2 (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) := by
  unfold Cert.ReferenceIdeal.ValueP.res_main_v64 network conv7 conv16 relu16 edgeNorm edgeNormOf dinv degPos deg wrapIdx rowIdx colIdx edgeRow0 edgeRow1
  rfl

/-- So it is the network with the plain products. -/
theorem result_eq (m : (ℓ : Loc Cert.ReferenceIdeal.nD Cert.ReferenceIdeal.τ Cert.ReferenceIdeal.sig) → Buf (Elt Ideal) ℓ) (c : Dev Cert.ReferenceIdeal.nD) :
    (Cert.ReferenceIdeal.ValueP.res_main_v64 (F := Ideal) m c : FVec Ideal Cert.KernelIdeal.S100000x7 .f32)
      = network lin1 lin2 (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) := by
  rw [result_term, dot1_eq, dot2_eq]

end Cert.ReferenceIdeal.Net

end
-- ==== Proof.lean ====
/-
  The certificate of a two-layer graph convolutional network: node features 100000×512, 3 200 000 edges, hidden
  width 16, 7 classes.

  The kernel program and the reference run the same host operations around their two linear transforms — the edge
  list with self loops, the symmetric degree normalisation `dinv[source] · dinv[target]`, per layer a gather at the
  sources, a scaling, a scatter-add at the targets and a bias, a rectifier between the layers. They differ only in
  the transforms: the reference takes `x · W` as one `dot_general`; the kernel takes it over a grid of 25 blocks of
  4000 rows, each block multiplied on the matrix unit with its operands rounded to bf16 and a zero f32 accumulator.
  Over the extended reals the rounding is the identity and the rows of a product are the product of the rows, so
  each grid leaves exactly `x · W`. Both results are then ONE function of the six arguments (`Graph.network` with the
  plain products), whatever the arguments hold: no finiteness is used.

  Modules: `Graph` (the shared host side as functions), `Layer1Grid` / `Layer2Grid` (each grid's array is the whole
  product), `KernelRun` (the kernel program's run with every buffer named), `Chain` (its buffers read back segment
  by segment), `ReferenceRun` (the reference's run) and `RefValue` (its result as the same network).
-/
import proofs.«150052_j30219389894763_1_alg».proof.Defs
import proofs.«150052_j30219389894763_1_alg».proof.Proof.Gen.Kernel
import proofs.«150052_j30219389894763_1_alg».proof.Proof.Gen.Kernel.Skeleton
import proofs.«150052_j30219389894763_1_alg».proof.Proof.Gen.Kernel.Launch
import proofs.«150052_j30219389894763_1_alg».proof.Proof.Gen.Kernel.Points
import proofs.«150052_j30219389894763_1_alg».proof.Proof.Gen.Kernel.Frame
import proofs.«150052_j30219389894763_1_alg».proof.Proof.Gen.KernelIdeal
import proofs.«150052_j30219389894763_1_alg».proof.Proof.Gen.KernelIdeal.Skeleton
import proofs.«150052_j30219389894763_1_alg».proof.Proof.Gen.KernelIdeal.Launch
import proofs.«150052_j30219389894763_1_alg».proof.Proof.Gen.KernelIdeal.Points
import proofs.«150052_j30219389894763_1_alg».proof.Proof.Gen.KernelIdeal.Frame
import proofs.«150052_j30219389894763_1_alg».proof.Proof.Gen.ReferenceIdeal
import proofs.«150052_j30219389894763_1_alg».proof.Proof.Gen.Pre_finite_inputs
import proofs.«150052_j30219389894763_1_alg».proof.Proof.KernelRun
import proofs.«150052_j30219389894763_1_alg».proof.Proof.Chain
import proofs.«150052_j30219389894763_1_alg».proof.Proof.ReferenceRun
import proofs.«150052_j30219389894763_1_alg».proof.Proof.RefValue
import Idealize.ShloMosaic.Adequacy
import Idealize.ShloMosaic.Init

noncomputable section

namespace Cert.Proof

open Idealize.ShloMosaic Idealize.SL.Sem

/-- The kernel program as printed terminates without a fault and returns its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The ideal pass rewrote nothing: the idealization is the program's own text read over the extended reals. -/
theorem preserves : Cert.preserves_Kernel_KernelIdeal := trivial

/-- From memories that agree on the six arguments both programs end with the network of those arguments in their
    result buffers: the kernel's two grids leave the plain products (`Chain.result_eq`), the reference's two
    `dot_general`s are the plain products (`Net.result_eq`). -/
theorem algebraic : Cert.algebraic_KernelIdeal_ReferenceIdeal := by
  intro m ρ m' ρ' _ hagree
  refine ⟨fun c => Cert.KernelIdeal.Graph.network Cert.KernelIdeal.Chain.lin1 Cert.KernelIdeal.Chain.lin2
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Chain.result_eq m ρ c), (h c).2⟩)
      (Cert.KernelIdeal.Whole.run_result (F := Ideal) m ρ)
  · refine (θ_run Cert.ReferenceIdeal.defs _ _).mono (fun _ h c => ⟨(h c).1.trans ?_, (h c).2⟩)
      (Cert.ReferenceIdeal.ValueP.run (F := Ideal) m' ρ')
    refine (Cert.ReferenceIdeal.Net.result_eq m' c).trans ?_
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
